-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel

variable [Facts]

def fn_part1 {F : FTy → Type} [FloatOps F] (main_v13 : IVec S_ 1) (main_v16 : IVec S64x256x32x32 1) : IVec S_ 1 :=
  let main_c_5 : IVec S_ 1 := constantI S_ 1 1#1
  let main_v17 : IVec S_ 1 := (fun x v => Host.reduce IntOp.andi x v reducesTo_S64x256x32x32_S_d0_1_2_3 h_S_) main_v16 main_c_5
  let main_v18 : IVec S_ 1 := andi main_v13 main_v17
  main_v18

def fn {F : FTy → Type} [FloatOps F] (main_arg0 : FVec F S64x256x32x32 .f32) (main_arg1 : FVec F S64x256x32x32 .f32) (main_arg2 : FVec F S64x256x32x32 .f32) (main_arg3 : FVec F S64x256x32x32 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  let main_v4 : FVec F S64x256x32x32 .f32 := Host.absf main_arg1
  let main_cst_0 : FVec F S_ .f32 := constant S_ .f32 0x7F800000#32
  let main_v5 : FVec F S64x256x32x32 .f32 := broadcastInDim S64x256x32x32 ![] bcast_S_S64x256x32x32 main_cst_0
  let main_v6 : IVec S64x256x32x32 1 := cmpf .olt main_v4 main_v5
  let main_c_1 : IVec S_ 1 := constantI S_ 1 1#1
  let main_v7 : IVec S_ 1 := (fun x v => Host.reduce IntOp.andi x v reducesTo_S64x256x32x32_S_d0_1_2_3 h_S_) main_v6 main_c_1
  let main_v8 : IVec S_ 1 := andi main_v3 main_v7
  let main_v9 : FVec F S64x256x32x32 .f32 := Host.absf main_arg2
  let main_cst_2 : FVec F S_ .f32 := constant S_ .f32 0x7F800000#32
  let main_v10 : FVec F S64x256x32x32 .f32 := broadcastInDim S64x256x32x32 ![] bcast_S_S64x256x32x32 main_cst_2
  let main_v11 : IVec S64x256x32x32 1 := cmpf .olt main_v9 main_v10
  let main_c_3 : IVec S_ 1 := constantI S_ 1 1#1
  let main_v12 : IVec S_ 1 := (fun x v => Host.reduce IntOp.andi x v reducesTo_S64x256x32x32_S_d0_1_2_3 h_S_) main_v11 main_c_3
  let main_v13 : IVec S_ 1 := andi main_v8 main_v12
  let main_v14 : FVec F S64x256x32x32 .f32 := Host.absf main_arg3
  let main_cst_4 : FVec F S_ .f32 := constant S_ .f32 0x7F800000#32
  let main_v15 : FVec F S64x256x32x32 .f32 := broadcastInDim S64x256x32x32 ![] bcast_S_S64x256x32x32 main_cst_4
  let main_v16 : IVec S64x256x32x32 1 := cmpf .olt main_v14 main_v15
  fn_part1 (F := F) main_v13 main_v16
-- ==== Kernel.lean ====
abbrev S64x256x32x32 : Shape := ⟨4, ![64, 256, 32, 32]⟩
abbrev S64x256x1024 : Shape := ⟨3, ![64, 256, 1024]⟩
abbrev S1x256x1024 : Shape := ⟨3, ![1, 256, 1024]⟩

abbrev nBuf : Space → Nat
  | .hbm => 15
  | .vmem => 14
  | .smem => 0
  | _ => 0

abbrev bufTy : (tb : Table) → Fin (tcTables nBuf tb) → BufTy
  | .hbm, ⟨0, _⟩ => ⟨S64x256x32x32, .f32⟩
  | .hbm, ⟨1, _⟩ => ⟨S64x256x32x32, .f32⟩
  | .hbm, ⟨2, _⟩ => ⟨S64x256x32x32, .f32⟩
  | .hbm, ⟨3, _⟩ => ⟨S64x256x32x32, .f32⟩
  | .hbm, ⟨4, _⟩ => ⟨S64x256x1024, .f32⟩
  | .hbm, ⟨5, _⟩ => ⟨S64x256x1024, .f32⟩
  | .hbm, ⟨6, _⟩ => ⟨S64x256x1024, .f32⟩
  | .hbm, ⟨7, _⟩ => ⟨S64x256x1024, .f32⟩
  | .hbm, ⟨8, _⟩ => ⟨S64x256x1024, .f32⟩
  | .hbm, ⟨9, _⟩ => ⟨S64x256x1024, .f32⟩
  | .hbm, ⟨10, _⟩ => ⟨S64x256x1024, .f32⟩
  | .hbm, ⟨11, _⟩ => ⟨S64x256x32x32, .f32⟩
  | .hbm, ⟨12, _⟩ => ⟨S64x256x32x32, .f32⟩
  | .hbm, ⟨13, _⟩ => ⟨S64x256x32x32, .f32⟩
  | .hbm, ⟨14, _⟩ => ⟨S64x256x32x32, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x256x32x32_S64x256x1024 : S64x256x32x32.ShapeCasts S64x256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S1x256x1024 : S1x256x1024.ShapeCasts S1x256x1024
  shapeCasts_S64x256x1024_S64x256x32x32 : S64x256x1024.ShapeCasts S64x256x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S64x256x1024.size a
  hwx0_0 : ∀ i : grid0.Coords, EltTy.bits .f32 = 32 ∨ (Rect.block (s := S64x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S64x256x1024.size a
  hwx0_1 : ∀ i : grid0.Coords, EltTy.bits .f32 = 32 ∨ (Rect.block (s := S64x256x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S64x256x1024.size a
  hwx0_2 : ∀ i : grid0.Coords, EltTy.bits .f32 = 32 ∨ (Rect.block (s := S64x256x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S64x256x1024.size a
  hwx0_3 : ∀ i : grid0.Coords, EltTy.bits .f32 = 32 ∨ (Rect.block (s := S64x256x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S64x256x1024.size a
  hwx0_4 : ∀ i : grid0.Coords, EltTy.bits .f32 = 32 ∨ (Rect.block (s := S64x256x1024) S1x256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S64x256x1024.size a
  hwx0_5 : ∀ i : grid0.Coords, EltTy.bits .f32 = 32 ∨ (Rect.block (s := S64x256x1024) S1x256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S64x256x1024.size a
  hwx0_6 : ∀ i : grid0.Coords, EltTy.bits .f32 = 32 ∨ (Rect.block (s := S64x256x1024) S1x256x1024.size (cc0_transform_6 i) (hinb0_6 i)).WholeWords (EltTy.packing .f32)

variable [Facts₀]

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_3) S1x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x256x32x32 : Shape := ⟨4, ![64, 256, 32, 32]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S64x256x32x32, .f32⟩
  | .hbm, ⟨1, _⟩ => ⟨S64x256x32x32, .f32⟩
  | .hbm, ⟨2, _⟩ => ⟨S64x256x32x32, .f32⟩
  | .hbm, ⟨3, _⟩ => ⟨S64x256x32x32, .f32⟩
  | .hbm, ⟨4, _⟩ => ⟨S_, .f32⟩
  | .hbm, ⟨5, _⟩ => ⟨S64x256x32x32, .f32⟩
  | .hbm, ⟨6, _⟩ => ⟨S64x256x32x32, .i1⟩
  | .hbm, ⟨7, _⟩ => ⟨S_, .f32⟩
  | .hbm, ⟨8, _⟩ => ⟨S_, .f32⟩
  | .hbm, ⟨9, _⟩ => ⟨S64x256x32x32, .f32⟩
  | .hbm, ⟨10, _⟩ => ⟨S64x256x32x32, .f32⟩
  | .hbm, ⟨11, _⟩ => ⟨S64x256x32x32, .f32⟩
  | .hbm, ⟨12, _⟩ => ⟨S_, .f32⟩
  | .hbm, ⟨13, _⟩ => ⟨S64x256x32x32, .f32⟩
  | .hbm, ⟨14, _⟩ => ⟨S64x256x32x32, .i1⟩
  | .hbm, ⟨15, _⟩ => ⟨S_, .f32⟩
  | .hbm, ⟨16, _⟩ => ⟨S64x256x32x32, .f32⟩
  | .hbm, ⟨17, _⟩ => ⟨S64x256x32x32, .f32⟩
  | .hbm, ⟨18, _⟩ => ⟨S64x256x32x32, .f32⟩
  | .hbm, ⟨19, _⟩ => ⟨S_, .f32⟩
  | .hbm, ⟨20, _⟩ => ⟨S64x256x32x32, .f32⟩
  | .hbm, ⟨21, _⟩ => ⟨S64x256x32x32, .i1⟩
  | .hbm, ⟨22, _⟩ => ⟨S_, .f32⟩
  | .hbm, ⟨23, _⟩ => ⟨S_, .f32⟩
  | .hbm, ⟨24, _⟩ => ⟨S64x256x32x32, .f32⟩
  | .hbm, ⟨25, _⟩ => ⟨S64x256x32x32, .f32⟩
  | .hbm, ⟨26, _⟩ => ⟨S64x256x32x32, .f32⟩
  | .hbm, ⟨27, _⟩ => ⟨S64x256x32x32, .f32⟩
  | .hbm, ⟨28, _⟩ => ⟨S_, .f32⟩
  | .hbm, ⟨29, _⟩ => ⟨S64x256x32x32, .f32⟩
  | .hbm, ⟨30, _⟩ => ⟨S64x256x32x32, .i1⟩
  | .hbm, ⟨31, _⟩ => ⟨S_, .f32⟩
  | .hbm, ⟨32, _⟩ => ⟨S_, .f32⟩
  | .hbm, ⟨33, _⟩ => ⟨S64x256x32x32, .f32⟩
  | .hbm, ⟨34, _⟩ => ⟨S64x256x32x32, .f32⟩
  | .hbm, ⟨35, _⟩ => ⟨S_, .f32⟩
  | .hbm, ⟨36, _⟩ => ⟨S_, .f32⟩
  | .hbm, ⟨37, _⟩ => ⟨S64x256x32x32, .f32⟩
  | .hbm, ⟨38, _⟩ => ⟨S64x256x32x32, .f32⟩
  | .hbm, ⟨39, _⟩ => ⟨S_, .f32⟩
  | .hbm, ⟨40, _⟩ => ⟨S_, .f32⟩
  | .hbm, ⟨41, _⟩ => ⟨S64x256x32x32, .f32⟩
  | .hbm, ⟨42, _⟩ => ⟨S64x256x32x32, .f32⟩
  | .hbm, ⟨43, _⟩ => ⟨S64x256x32x32, .f32⟩
  | .hbm, ⟨44, _⟩ => ⟨S64x256x32x32, .f32⟩
  | _, _ => ⟨S64x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_cst_5 : Ref sig .tc := ⟨.hbm, 23, rfl⟩
abbrev main_call2_v0 : Ref sig .tc := ⟨.hbm, 24, rfl⟩
abbrev main_call2_v1 : Ref sig .tc := ⟨.hbm, 25, rfl⟩
abbrev main_v11 : Ref sig .tc := ⟨.hbm, 26, rfl⟩
abbrev main_v12 : Ref sig .tc := ⟨.hbm, 27, rfl⟩
abbrev main_cst_6 : Ref sig .tc := ⟨.hbm, 28, rfl⟩
abbrev main_v13 : Ref sig .tc := ⟨.hbm, 29, rfl⟩
abbrev main_v14 : Ref sig .tc := ⟨.hbm, 30, rfl⟩
abbrev main_cst_7 : Ref sig .tc := ⟨.hbm, 31, rfl⟩
abbrev main_call3_v0 : Ref sig .tc := ⟨.hbm, 32, rfl⟩
abbrev main_call3_v1 : Ref sig .tc := ⟨.hbm, 33, rfl⟩
abbrev main_v15 : Ref sig .tc := ⟨.hbm, 34, rfl⟩
abbrev main_cst_8 : Ref sig .tc := ⟨.hbm, 35, rfl⟩
abbrev main_call4_v0 : Ref sig .tc := ⟨.hbm, 36, rfl⟩
abbrev main_call4_v1 : Ref sig .tc := ⟨.hbm, 37, rfl⟩
abbrev main_v16 : Ref sig .tc := ⟨.hbm, 38, rfl⟩
abbrev main_cst_9 : Ref sig .tc := ⟨.hbm, 39, rfl⟩
abbrev main_cst_10 : Ref sig .tc := ⟨.hbm, 40, rfl⟩
abbrev main_call5_v0 : Ref sig .tc := ⟨.hbm, 41, rfl⟩
abbrev main_call5_v1 : Ref sig .tc := ⟨.hbm, 42, rfl⟩
abbrev main_v17 : Ref sig .tc := ⟨.hbm, 43, rfl⟩
abbrev main_v18 : Ref sig .tc := ⟨.hbm, 44, rfl⟩

abbrev nD : Nat := 1
abbrev τ : Topo := Topo.v7x

variable {F : FTy → Type} [FloatOps F]

class Facts₀ : Prop where
  bcast_S_S64x256x32x32 : S_.BroadcastsInDim S64x256x32x32 (![] : Fin 0 → Fin S64x256x32x32.rank)

variable [Facts₀]

class Facts : Prop extends Facts₀ where

variable [Facts]
-- ==== Proof.Spec.lean ====
/-
  One leaky integrate-and-fire step, element by element.

  Every output element depends on ONE element of each of the three arrays it reads: the impulse `x`, the membrane
  potential `m` and the refractory deadline `r` (the fourth argument, the spike train, is not read at all).
  With the literals 5 (the current time), 0.1 (the leak, as the f32 nearest to 0.1), 1 (the threshold) and 7 (the time plus
  the refractory period):

    integrated = m + (if r > 5 then 0 else x)
    potential  = if integrated > 0 then integrated - 0.1 else integrated
    amplitude  = if potential ≥ 1 then 1 else 0                      (the first result)
    fired      = amplitude ≠ 0
    reset      = if fired then 0 else potential                      (the second result)
    deadline   = if fired then 7 else r                              (the third result)
    stamp      = if fired then 5 else 0                              (the fourth result)

  The functions are stated over any float instance `F`, with the float operations' own names, so that a program's
  vector term is one of them index by index by unfolding alone. The test `amplitude ≠ 0` is spelt with the ORDERED
  predicate by one program and with the UNORDERED one by the other; the functions take the predicate as a parameter,
  and on the extended reals — where every two values are comparable — the two predicates are one test (`fired_une`).

  Because each function is applied index by index, it commutes with every re-indexing of the arrays, a change of
  shape that keeps the row-major order (`shapeCast`) in particular: `shapeCast_amplitudeV` and its siblings.
-/
import Idealize.ShloMosaic.PureOps.Ideal

noncomputable section

namespace Cert.Spike

open Idealize.ShloMosaic

variable {F : FTy → Type} [FloatOps F]

/-- An f32 literal, by its word. -/
abbrev lit (w : BitVec 32) : F .f32 := FloatOps.ofBits .f32 w

/-- The membrane potential plus the impulse, the impulse dropped while the element is refractory (`r > 5`). -/
def integrated (x m r : F .f32) : F .f32 :=
  FloatOps.addf m (Scalar.select (FloatOps.cmpf .ogt r (lit 0x40A00000#32)) (lit 0x00000000#32) x)

/-- The leak: a positive potential loses 0.1. -/
def potential (x m r : F .f32) : F .f32 :=
  Scalar.select (FloatOps.cmpf .ogt (integrated x m r) (lit 0x00000000#32))
    (FloatOps.subf (integrated x m r) (lit 0x3DCCCCCD#32)) (integrated x m r)

/-- The spike's amplitude: 1 where the potential reaches the threshold 1, else 0. -/
def amplitude (x m r : F .f32) : F .f32 :=
  Scalar.select (FloatOps.cmpf .oge (potential x m r) (lit 0x3F800000#32)) (lit 0x3F800000#32) (lit 0x00000000#32)

/-- Whether the element fired: its amplitude is not 0, tested with the predicate `ne`. -/
def fired (ne : CmpFPredicate) (x m r : F .f32) : BitVec 1 :=
  FloatOps.cmpf ne (amplitude x m r) (lit 0x00000000#32)

/-- The potential, reset to 0 where the element fired. -/
def reset (ne : CmpFPredicate) (x m r : F .f32) : F .f32 :=
  Scalar.select (fired ne x m r) (lit 0x00000000#32) (potential x m r)

/-- The refractory deadline, moved to 7 where the element fired. -/
def deadline (ne : CmpFPredicate) (x m r : F .f32) : F .f32 :=
  Scalar.select (fired ne x m r) (lit 0x40E00000#32) r

/-- The spike train's entry: the time 5 where the element fired, else 0. -/
def stamp (ne : CmpFPredicate) (x m r : F .f32) : F .f32 :=
  Scalar.select (fired ne x m r) (lit 0x40A00000#32) (lit 0x00000000#32)

/-! ## The same, over arrays of any shape -/

section Arrays
variable {S : Shape}

def amplitudeV (x m r : S.Idx → F .f32) : S.Idx → F .f32 := fun i => amplitude (x i) (m i) (r i)
def resetV (ne : CmpFPredicate) (x m r : S.Idx → F .f32) : S.Idx → F .f32 := fun i => reset ne (x i) (m i) (r i)
def deadlineV (ne : CmpFPredicate) (x m r : S.Idx → F .f32) : S.Idx → F .f32 := fun i => deadline ne (x i) (m i) (r i)
def stampV (ne : CmpFPredicate) (x m r : S.Idx → F .f32) : S.Idx → F .f32 := fun i => stamp ne (x i) (m i) (r i)

variable {T : Shape}

/-- A function applied index by index commutes with a change of shape. -/
theorem shapeCast_amplitudeV (x m r : S.Idx → F .f32) (h : S.ShapeCasts T) :
    shapeCast T (amplitudeV x m r) h = amplitudeV (shapeCast T x h) (shapeCast T m h) (shapeCast T r h) := rfl
theorem shapeCast_resetV (ne : CmpFPredicate) (x m r : S.Idx → F .f32) (h : S.ShapeCasts T) :
    shapeCast T (resetV ne x m r) h = resetV ne (shapeCast T x h) (shapeCast T m h) (shapeCast T r h) := rfl
theorem shapeCast_deadlineV (ne : CmpFPredicate) (x m r : S.Idx → F .f32) (h : S.ShapeCasts T) :
    shapeCast T (deadlineV ne x m r) h = deadlineV ne (shapeCast T x h) (shapeCast T m h) (shapeCast T r h) := rfl
theorem shapeCast_stampV (ne : CmpFPredicate) (x m r : S.Idx → F .f32) (h : S.ShapeCasts T) :
    shapeCast T (stampV ne x m r) h = stampV ne (shapeCast T x h) (shapeCast T m h) (shapeCast T r h) := rfl

end Arrays

/-! ## On the extended reals the unordered test is the ordered one -/

/-- Every two extended reals are comparable, so "unordered or different" is "different". -/
theorem fired_une (x m r : Ideal .f32) : fired (F := Ideal) .une x m r = fired .one x m r := rfl

theorem resetV_une {S : Shape} (x m r : S.Idx → Ideal .f32) : resetV (F := Ideal) .une x m r = resetV .one x m r := rfl
theorem deadlineV_une {S : Shape} (x m r : S.Idx → Ideal .f32) : deadlineV (F := Ideal) .une x m r = deadlineV .one x m r := rfl
theorem stampV_une {S : Shape} (x m r : S.Idx → Ideal .f32) : stampV (F := Ideal) .une x m r = stampV .one x m r := rfl

end Cert.Spike

end
-- ==== Proof.KernelBlock.lean ====
/-
  What the kernel body leaves in each output block: the step's functions of the three input blocks.

  The body loads the three input blocks whole, computes with vector operations that act index by index (comparisons with a
  broadcast literal, selections, one addition and one subtraction; the shape casts in it are casts to the same shape), and
  stores each of the four results whole. So each output block is the corresponding function of `Cert.Spike` applied
  index by index to the input blocks, at any float instance.
-/
import proofs.«151296_j62466004353543_2_alg».proof.Proof.Gen.KernelIdeal.Frame
import proofs.«151296_j62466004353543_2_alg».proof.Proof.Spec
import Idealize.ShloMosaic.Lib.Pipeline.Value

noncomputable section

namespace Cert.KernelIdeal.Block

open Idealize.ShloMosaic Cert.KernelIdeal Cert.KernelIdeal.Gen Cert.Spike

variable {F : FTy → Type} [FloatOps F]

/-- The zero offsets of a whole-block access. -/
theorem hz : (![0, 0, 0] : Fin 3 → Nat) = fun _ => 0 := funext fun a => by fin_cases a <;> rfl

/-! ## The stored values, index by index -/

theorem pay_amplitude (x0 x1 x2 : Vec F S1x256x1024 .f32) : k0_pay3 x0 x1 x2 = amplitudeV x0 x1 x2 := by
  unfold k0_pay3 k0_pay2 k0_pay1
  simp only [shapeCast_self]
  rfl

theorem pay_reset (x0 x1 x2 : Vec F S1x256x1024 .f32) : k0_pay5 x0 x1 x2 = resetV .one x0 x1 x2 := by
  unfold k0_pay5 k0_pay4 k0_pay3 k0_pay2 k0_pay1
  simp only [shapeCast_self]
  rfl

theorem pay_deadline (x0 x1 x2 : Vec F S1x256x1024 .f32) : k0_pay6 x0 x1 x2 = deadlineV .one x0 x1 x2 := by
  unfold k0_pay6 k0_pay4 k0_pay3 k0_pay2 k0_pay1
  simp only [shapeCast_self]
  rfl

theorem pay_stamp (x0 x1 x2 : Vec F S1x256x1024 .f32) : k0_pay7 x0 x1 x2 = stampV .one x0 x1 x2 := by
  unfold k0_pay7 k0_pay4 k0_pay3 k0_pay2 k0_pay1
  simp only [shapeCast_self]
  rfl

/-! ## The output blocks after the body -/

/-- One whole-block store of a value computed from whole-block loads leaves that value of the blocks. -/
theorem out_amplitude (x0 x1 x2 : Vec F S1x256x1024 .f32) : out0_3 x0 x1 x2 = amplitudeV x0 x1 x2 := by
  unfold out0_3
  rw [View.canon_unit_zero hz]
  simp only [View.ld_unit_zero (S := S1x256x1024) hz]
  exact pay_amplitude x0 x1 x2

theorem out_reset (x0 x1 x2 : Vec F S1x256x1024 .f32) : out0_4 x0 x1 x2 = resetV .one x0 x1 x2 := by
  unfold out0_4
  rw [View.canon_unit_zero hz]
  simp only [View.ld_unit_zero (S := S1x256x1024) hz]
  exact pay_reset x0 x1 x2

theorem out_deadline (x0 x1 x2 : Vec F S1x256x1024 .f32) : out0_5 x0 x1 x2 = deadlineV .one x0 x1 x2 := by
  unfold out0_5
  rw [View.canon_unit_zero hz]
  simp only [View.ld_unit_zero (S := S1x256x1024) hz]
  exact pay_deadline x0 x1 x2

theorem out_stamp (x0 x1 x2 : Vec F S1x256x1024 .f32) : out0_6 x0 x1 x2 = stampV .one x0 x1 x2 := by
  unfold out0_6
  rw [View.canon_unit_zero hz]
  simp only [View.ld_unit_zero (S := S1x256x1024) hz]
  exact pay_stamp x0 x1 x2

end Cert.KernelIdeal.Block

end
-- ==== Proof.KernelArray.lean ====
/-
  The four arrays the kernel's region leaves, each as one function of the three arrays it reads.

  The grid has 64 points; at point `t` every one of the seven windows (three read, four written) is at block
  `(t, 0, 0)` of its [64, 256, 1024] array, a block of shape [1, 256, 1024]: element `j` of any window's block at `t`
  sits at the same place `(t, j 1, j 2)` of that window's array. The body computes index by index
  (Proof/KernelBlock.lean), so what point `t` writes back to an output array is block `t` of ONE whole-array function
  of the input arrays; the 64 blocks tile the array (row `i 0` is written at point `i 0`), so after the region the
  output array IS that function of the input arrays. The input arrays are the program's first three arguments in the
  flattened shape (the host reshapes them before the region).
-/
import proofs.«151296_j62466004353543_2_alg».proof.Proof.KernelBlock
import Idealize.ShloMosaic.Lib.StableHlo.Run

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Block Cert.Spike

variable {F : FTy → Type} [FloatOps F]
variable (m : (ℓ : Loc nD τ sig) → Buf (Elt F) ℓ) (ρ : Dev nD → PrngReg)

/-! ## Where the blocks sit -/

/-- Every window's block index at a point is the first output window's, on every axis (decided over the 64 points). -/
theorem idx_same : ∀ t : Fin cfg0.N, ∀ a : Fin 3,
    win0_0.index t a = win0_3.index t a ∧ win0_1.index t a = win0_3.index t a ∧ win0_2.index t a = win0_3.index t a
    ∧ win0_4.index t a = win0_3.index t a ∧ win0_5.index t a = win0_3.index t a ∧ win0_6.index t a = win0_3.index t a :=
  (by decide +kernel : ∀ t : Fin grid0.N, ∀ a : Fin 3, _)

/-- And it is `(t, 0, 0)`. -/
theorem idx_row : ∀ t : Fin cfg0.N,
    win0_3.index t (0 : Fin 3) = t.val ∧ win0_3.index t (1 : Fin 3) = 0 ∧ win0_3.index t (2 : Fin 3) = 0 :=
  (by decide +kernel : ∀ t : Fin grid0.N, _)

/-- Element `j` of the first input window's block sits where element `j` of the first output window's block does. -/
theorem emb_0 (t : Fin cfg0.N) (j : S1x256x1024.Idx) :
    ((cfg0.win 0).blk t).view.emb j = ((cfg0.win 3).blk t).view.emb j := by
  have e0 := (idx_same t 0).1
  have e1 := (idx_same t 1).1
  have e2 := (idx_same t 2).1
  funext a; apply Fin.ext
  match a with
  | ⟨0, _⟩ => show win0_0.index t (0 : Fin 3) * 1 + 1 * (j 0).val = win0_3.index t (0 : Fin 3) * 1 + 1 * (j 0).val; omega
  | ⟨1, _⟩ => show win0_0.index t (1 : Fin 3) * 256 + 1 * (j 1).val = win0_3.index t (1 : Fin 3) * 256 + 1 * (j 1).val; omega
  | ⟨2, _⟩ => show win0_0.index t (2 : Fin 3) * 1024 + 1 * (j 2).val = win0_3.index t (2 : Fin 3) * 1024 + 1 * (j 2).val; omega

theorem emb_1 (t : Fin cfg0.N) (j : S1x256x1024.Idx) :
    ((cfg0.win 1).blk t).view.emb j = ((cfg0.win 3).blk t).view.emb j := by
  have e0 := (idx_same t 0).2.1
  have e1 := (idx_same t 1).2.1
  have e2 := (idx_same t 2).2.1
  funext a; apply Fin.ext
  match a with
  | ⟨0, _⟩ => show win0_1.index t (0 : Fin 3) * 1 + 1 * (j 0).val = win0_3.index t (0 : Fin 3) * 1 + 1 * (j 0).val; omega
  | ⟨1, _⟩ => show win0_1.index t (1 : Fin 3) * 256 + 1 * (j 1).val = win0_3.index t (1 : Fin 3) * 256 + 1 * (j 1).val; omega
  | ⟨2, _⟩ => show win0_1.index t (2 : Fin 3) * 1024 + 1 * (j 2).val = win0_3.index t (2 : Fin 3) * 1024 + 1 * (j 2).val; omega

theorem emb_2 (t : Fin cfg0.N) (j : S1x256x1024.Idx) :
    ((cfg0.win 2).blk t).view.emb j = ((cfg0.win 3).blk t).view.emb j := by
  have e0 := (idx_same t 0).2.2.1
  have e1 := (idx_same t 1).2.2.1
  have e2 := (idx_same t 2).2.2.1
  funext a; apply Fin.ext
  match a with
  | ⟨0, _⟩ => show win0_2.index t (0 : Fin 3) * 1 + 1 * (j 0).val = win0_3.index t (0 : Fin 3) * 1 + 1 * (j 0).val; omega
  | ⟨1, _⟩ => show win0_2.index t (1 : Fin 3) * 256 + 1 * (j 1).val = win0_3.index t (1 : Fin 3) * 256 + 1 * (j 1).val; omega
  | ⟨2, _⟩ => show win0_2.index t (2 : Fin 3) * 1024 + 1 * (j 2).val = win0_3.index t (2 : Fin 3) * 1024 + 1 * (j 2).val; omega

theorem emb_4 (t : Fin cfg0.N) (j : S1x256x1024.Idx) :
    ((cfg0.win 4).blk t).view.emb j = ((cfg0.win 3).blk t).view.emb j := by
  have e0 := (idx_same t 0).2.2.2.1
  have e1 := (idx_same t 1).2.2.2.1
  have e2 := (idx_same t 2).2.2.2.1
  funext a; apply Fin.ext
  match a with
  | ⟨0, _⟩ => show win0_4.index t (0 : Fin 3) * 1 + 1 * (j 0).val = win0_3.index t (0 : Fin 3) * 1 + 1 * (j 0).val; omega
  | ⟨1, _⟩ => show win0_4.index t (1 : Fin 3) * 256 + 1 * (j 1).val = win0_3.index t (1 : Fin 3) * 256 + 1 * (j 1).val; omega
  | ⟨2, _⟩ => show win0_4.index t (2 : Fin 3) * 1024 + 1 * (j 2).val = win0_3.index t (2 : Fin 3) * 1024 + 1 * (j 2).val; omega

theorem emb_5 (t : Fin cfg0.N) (j : S1x256x1024.Idx) :
    ((cfg0.win 5).blk t).view.emb j = ((cfg0.win 3).blk t).view.emb j := by
  have e0 := (idx_same t 0).2.2.2.2.1
  have e1 := (idx_same t 1).2.2.2.2.1
  have e2 := (idx_same t 2).2.2.2.2.1
  funext a; apply Fin.ext
  match a with
  | ⟨0, _⟩ => show win0_5.index t (0 : Fin 3) * 1 + 1 * (j 0).val = win0_3.index t (0 : Fin 3) * 1 + 1 * (j 0).val; omega
  | ⟨1, _⟩ => show win0_5.index t (1 : Fin 3) * 256 + 1 * (j 1).val = win0_3.index t (1 : Fin 3) * 256 + 1 * (j 1).val; omega
  | ⟨2, _⟩ => show win0_5.index t (2 : Fin 3) * 1024 + 1 * (j 2).val = win0_3.index t (2 : Fin 3) * 1024 + 1 * (j 2).val; omega

theorem emb_6 (t : Fin cfg0.N) (j : S1x256x1024.Idx) :
    ((cfg0.win 6).blk t).view.emb j = ((cfg0.win 3).blk t).view.emb j := by
  have e0 := (idx_same t 0).2.2.2.2.2
  have e1 := (idx_same t 1).2.2.2.2.2
  have e2 := (idx_same t 2).2.2.2.2.2
  funext a; apply Fin.ext
  match a with
  | ⟨0, _⟩ => show win0_6.index t (0 : Fin 3) * 1 + 1 * (j 0).val = win0_3.index t (0 : Fin 3) * 1 + 1 * (j 0).val; omega
  | ⟨1, _⟩ => show win0_6.index t (1 : Fin 3) * 256 + 1 * (j 1).val = win0_3.index t (1 : Fin 3) * 256 + 1 * (j 1).val; omega
  | ⟨2, _⟩ => show win0_6.index t (2 : Fin 3) * 1024 + 1 * (j 2).val = win0_3.index t (2 : Fin 3) * 1024 + 1 * (j 2).val; omega

/-! ## What a point writes back -/

/-- Point `t` writes back to the first output array block `t` of the amplitudes of the three input arrays. -/
theorem flushed_amplitude (c : Dev nD) (t : Fin cfg0.N) :
    (dats m 0 c).flushed 3 t
      = ((cfg0.win 3).blk t).view.read (Elt F) (amplitudeV (V m c main_v0) (V m c main_v1) (V m c main_v2)) := by
  show (cfg0.win 3).cut (grid0.coords t) ((dats m 0 c).after 3 t) = _
  rw [after0_3, out_amplitude]
  funext j
  show amplitude (V m c main_v0 (((cfg0.win 0).blk t).view.emb j)) (V m c main_v1 (((cfg0.win 1).blk t).view.emb j))
      (V m c main_v2 (((cfg0.win 2).blk t).view.emb j))
    = amplitude (V m c main_v0 (((cfg0.win 3).blk t).view.emb j)) (V m c main_v1 (((cfg0.win 3).blk t).view.emb j))
      (V m c main_v2 (((cfg0.win 3).blk t).view.emb j))
  rw [emb_0 t j, emb_1 t j, emb_2 t j]

/-- Point `t` writes back to the second output array block `t` of the reset potentials. -/
theorem flushed_reset (c : Dev nD) (t : Fin cfg0.N) :
    (dats m 0 c).flushed 4 t
      = ((cfg0.win 4).blk t).view.read (Elt F) (resetV .one (V m c main_v0) (V m c main_v1) (V m c main_v2)) := by
  show (cfg0.win 4).cut (grid0.coords t) ((dats m 0 c).after 4 t) = _
  rw [after0_4, out_reset]
  funext j
  show reset .one (V m c main_v0 (((cfg0.win 0).blk t).view.emb j)) (V m c main_v1 (((cfg0.win 1).blk t).view.emb j))
      (V m c main_v2 (((cfg0.win 2).blk t).view.emb j))
    = reset .one (V m c main_v0 (((cfg0.win 4).blk t).view.emb j)) (V m c main_v1 (((cfg0.win 4).blk t).view.emb j))
      (V m c main_v2 (((cfg0.win 4).blk t).view.emb j))
  rw [emb_0 t j, emb_1 t j, emb_2 t j, emb_4 t j]

/-- Point `t` writes back to the third output array block `t` of the new deadlines. -/
theorem flushed_deadline (c : Dev nD) (t : Fin cfg0.N) :
    (dats m 0 c).flushed 5 t
      = ((cfg0.win 5).blk t).view.read (Elt F) (deadlineV .one (V m c main_v0) (V m c main_v1) (V m c main_v2)) := by
  show (cfg0.win 5).cut (grid0.coords t) ((dats m 0 c).after 5 t) = _
  rw [after0_5, out_deadline]
  funext j
  show deadline .one (V m c main_v0 (((cfg0.win 0).blk t).view.emb j)) (V m c main_v1 (((cfg0.win 1).blk t).view.emb j))
      (V m c main_v2 (((cfg0.win 2).blk t).view.emb j))
    = deadline .one (V m c main_v0 (((cfg0.win 5).blk t).view.emb j)) (V m c main_v1 (((cfg0.win 5).blk t).view.emb j))
      (V m c main_v2 (((cfg0.win 5).blk t).view.emb j))
  rw [emb_0 t j, emb_1 t j, emb_2 t j, emb_5 t j]

/-- Point `t` writes back to the fourth output array block `t` of the stamps. -/
theorem flushed_stamp (c : Dev nD) (t : Fin cfg0.N) :
    (dats m 0 c).flushed 6 t
      = ((cfg0.win 6).blk t).view.read (Elt F) (stampV .one (V m c main_v0) (V m c main_v1) (V m c main_v2)) := by
  show (cfg0.win 6).cut (grid0.coords t) ((dats m 0 c).after 6 t) = _
  rw [after0_6, out_stamp]
  funext j
  show stamp .one (V m c main_v0 (((cfg0.win 0).blk t).view.emb j)) (V m c main_v1 (((cfg0.win 1).blk t).view.emb j))
      (V m c main_v2 (((cfg0.win 2).blk t).view.emb j))
    = stamp .one (V m c main_v0 (((cfg0.win 6).blk t).view.emb j)) (V m c main_v1 (((cfg0.win 6).blk t).view.emb j))
      (V m c main_v2 (((cfg0.win 6).blk t).view.emb j))
  rw [emb_0 t j, emb_1 t j, emb_2 t j, emb_6 t j]

/-! ## The blocks tile each output array -/

/-- An index of the first output array is in point `t`'s block iff, on each axis, it is in the block's range. -/
theorem mem_blk_3 (t : Fin cfg0.N) (i : S64x256x1024.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v3_0).slice (win0_3.rect t)).set ↔ _
  rw [View.set_slice_whole, Rect.mem_set_unit]
  exact Iff.rfl

theorem mem_blk_4 (t : Fin cfg0.N) (i : S64x256x1024.Idx) :
    i ∈ ((cfg0.win 4).blk t).view.set ↔ ∀ a : Fin 3, win0_4.index t a * S1x256x1024.size a ≤ (i a).val
      ∧ (i a).val < win0_4.index t a * S1x256x1024.size a + S1x256x1024.size a := by
  show i ∈ ((View.whole main_v3_1).slice (win0_4.rect t)).set ↔ _
  rw [View.set_slice_whole, Rect.mem_set_unit]
  exact Iff.rfl

theorem mem_blk_5 (t : Fin cfg0.N) (i : S64x256x1024.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v3_2).slice (win0_5.rect t)).set ↔ _
  rw [View.set_slice_whole, Rect.mem_set_unit]
  exact Iff.rfl

theorem mem_blk_6 (t : Fin cfg0.N) (i : S64x256x1024.Idx) :
    i ∈ ((cfg0.win 6).blk t).view.set ↔ ∀ a : Fin 3, win0_6.index t a * S1x256x1024.size a ≤ (i a).val
      ∧ (i a).val < win0_6.index t a * S1x256x1024.size a + S1x256x1024.size a := by
  show i ∈ ((View.whole main_v3_3).slice (win0_6.rect t)).set ↔ _
  rw [View.set_slice_whole, Rect.mem_set_unit]
  exact Iff.rfl

/-- Row `i 0` of the first output array is written back at point `i 0`. -/
theorem cover_3 (i : S64x256x1024.Idx) :
    ∃ t : Fin cfg0.N, (cfg0.win 3).flush t = true ∧ i ∈ ((cfg0.win 3).blk t).view.set := by
  have hN : cfg0.N = 64 := N_0
  have hi0 : (i 0).val < 64 := (i 0).isLt
  have hi1 : (i 1).val < 256 := (i 1).isLt
  have hi2 : (i 2).val < 1024 := (i 2).isLt
  have ht : (⟨(i 0).val, by omega⟩ : Fin cfg0.N).val = (i 0).val := rfl
  generalize (⟨(i 0).val, by omega⟩ : Fin cfg0.N) = t at ht
  obtain ⟨r0, r1, r2⟩ := idx_row t
  refine ⟨t, flush0_3 t, ?_⟩
  rw [mem_blk_3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

theorem cover_4 (i : S64x256x1024.Idx) :
    ∃ t : Fin cfg0.N, (cfg0.win 4).flush t = true ∧ i ∈ ((cfg0.win 4).blk t).view.set := by
  have hN : cfg0.N = 64 := N_0
  have hi0 : (i 0).val < 64 := (i 0).isLt
  have hi1 : (i 1).val < 256 := (i 1).isLt
  have hi2 : (i 2).val < 1024 := (i 2).isLt
  have ht : (⟨(i 0).val, by omega⟩ : Fin cfg0.N).val = (i 0).val := rfl
  generalize (⟨(i 0).val, by omega⟩ : Fin cfg0.N) = t at ht
  obtain ⟨r0, r1, r2⟩ := idx_row t
  have s0 := (idx_same t 0).2.2.2.1
  have s1 := (idx_same t 1).2.2.2.1
  have s2 := (idx_same t 2).2.2.2.1
  refine ⟨t, flush0_4 t, ?_⟩
  rw [mem_blk_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 1024 ≤ (i 2).val ∧ (i 2).val < win0_4.index t (2 : Fin 3) * 1024 + 1024; omega

theorem cover_5 (i : S64x256x1024.Idx) :
    ∃ t : Fin cfg0.N, (cfg0.win 5).flush t = true ∧ i ∈ ((cfg0.win 5).blk t).view.set := by
  have hN : cfg0.N = 64 := N_0
  have hi0 : (i 0).val < 64 := (i 0).isLt
  have hi1 : (i 1).val < 256 := (i 1).isLt
  have hi2 : (i 2).val < 1024 := (i 2).isLt
  have ht : (⟨(i 0).val, by omega⟩ : Fin cfg0.N).val = (i 0).val := rfl
  generalize (⟨(i 0).val, by omega⟩ : Fin cfg0.N) = t at ht
  obtain ⟨r0, r1, r2⟩ := idx_row t
  have s0 := (idx_same t 0).2.2.2.2.1
  have s1 := (idx_same t 1).2.2.2.2.1
  have s2 := (idx_same t 2).2.2.2.2.1
  refine ⟨t, flush0_5 t, ?_⟩
  rw [mem_blk_5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

theorem cover_6 (i : S64x256x1024.Idx) :
    ∃ t : Fin cfg0.N, (cfg0.win 6).flush t = true ∧ i ∈ ((cfg0.win 6).blk t).view.set := by
  have hN : cfg0.N = 64 := N_0
  have hi0 : (i 0).val < 64 := (i 0).isLt
  have hi1 : (i 1).val < 256 := (i 1).isLt
  have hi2 : (i 2).val < 1024 := (i 2).isLt
  have ht : (⟨(i 0).val, by omega⟩ : Fin cfg0.N).val = (i 0).val := rfl
  generalize (⟨(i 0).val, by omega⟩ : Fin cfg0.N) = t at ht
  obtain ⟨r0, r1, r2⟩ := idx_row t
  have s0 := (idx_same t 0).2.2.2.2.2
  have s1 := (idx_same t 1).2.2.2.2.2
  have s2 := (idx_same t 2).2.2.2.2.2
  refine ⟨t, flush0_6 t, ?_⟩
  rw [mem_blk_6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 1024 ≤ (i 2).val ∧ (i 2).val < win0_6.index t (2 : Fin 3) * 1024 + 1024; omega

/-! ## The output arrays after the region -/

theorem final_amplitude (c : Dev nD) :
    (dats m 0 c).arrAt 3 cfg0.N = amplitudeV (V m c main_v0) (V m c main_v1) (V m c main_v2) :=
  (dats m 0 c).arrAt_eq_of_cover 3 _ (fun t _ => flushed_amplitude m c t) cover_3

theorem final_reset (c : Dev nD) :
    (dats m 0 c).arrAt 4 cfg0.N = resetV .one (V m c main_v0) (V m c main_v1) (V m c main_v2) :=
  (dats m 0 c).arrAt_eq_of_cover 4 _ (fun t _ => flushed_reset m c t) cover_4

theorem final_deadline (c : Dev nD) :
    (dats m 0 c).arrAt 5 cfg0.N = deadlineV .one (V m c main_v0) (V m c main_v1) (V m c main_v2) :=
  (dats m 0 c).arrAt_eq_of_cover 5 _ (fun t _ => flushed_deadline m c t) cover_5

theorem final_stamp (c : Dev nD) :
    (dats m 0 c).arrAt 6 cfg0.N = stampV .one (V m c main_v0) (V m c main_v1) (V m c main_v2) :=
  (dats m 0 c).arrAt_eq_of_cover 6 _ (fun t _ => flushed_stamp m c t) cover_6

/-! ## The input arrays are the arguments, flattened -/

/-- The host reshapes the first argument [64, 256, 32, 32] → [64, 256, 1024] before the region. -/
theorem V_v0 (c : Dev nD) : (V m c main_v0 : S64x256x1024.Idx → Elt F .f32)
    = shapeCast S64x256x1024 (m ((c : Thread nD τ).loc main_arg0) : S64x256x32x32.Idx → Elt F .f32) shapeCasts_S64x256x32x32_S64x256x1024 := by
  show StableHlo.after hostOps0 (fun b => m (c, b)) (Proc.devRef .tc main_v0) = _
  after_results
  rfl

theorem V_v1 (c : Dev nD) : (V m c main_v1 : S64x256x1024.Idx → Elt F .f32)
    = shapeCast S64x256x1024 (m ((c : Thread nD τ).loc main_arg1) : S64x256x32x32.Idx → Elt F .f32) shapeCasts_S64x256x32x32_S64x256x1024 := by
  show StableHlo.after hostOps0 (fun b => m (c, b)) (Proc.devRef .tc main_v1) = _
  after_results
  rfl

theorem V_v2 (c : Dev nD) : (V m c main_v2 : S64x256x1024.Idx → Elt F .f32)
    = shapeCast S64x256x1024 (m ((c : Thread nD τ).loc main_arg2) : S64x256x32x32.Idx → Elt F .f32) shapeCasts_S64x256x32x32_S64x256x1024 := by
  show StableHlo.after hostOps0 (fun b => m (c, b)) (Proc.devRef .tc main_v2) = _
  after_results
  rfl

end Cert.KernelIdeal.Arrays

end
-- ==== Proof.KernelRun.lean ====
/-
  The kernel program's four results as functions of its first three arguments.

  Around the region the host only changes shapes: it flattens each argument [64, 256, 32, 32] → [64, 256, 1024] before the
  region and un-flattens each output array afterwards. The region's output arrays are the step's functions applied index
  by index to the flattened arguments (Proof/KernelArray.lean), a function applied index by index commutes with a change of
  shape, and flattening then un-flattening is the identity: so each result is the same function applied index by index to
  the arguments themselves.
-/
import proofs.«151296_j62466004353543_2_alg».proof.Proof.KernelArray

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Arrays Cert.Spike

variable {F : FTy → Type} [FloatOps F]
variable (m : (ℓ : Loc nD τ sig) → Buf (Elt F) ℓ) (ρ : Dev nD → PrngReg)

/-- The first result: the first output array, un-flattened. -/
theorem result_amplitude (c : Dev nD) :
    Pipeline.afterTail₀ cfgs (dats m) 0 (V0 m) [hostOps1] c main_v4
      = amplitudeV (S := S64x256x32x32) (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v4) = _
  after_results
  have hA := (Pipeline.withArrays_arr spec0 launch0.win.arr_inj c (V0 m c) (fun w => (dats m 0 c).arrAt w cfg0.N) 3).trans
    (final_amplitude m c)
  refine (congrArg (fun v : S64x256x1024.Idx → Elt F .f32 =>
    shapeCast S64x256x32x32 v shapeCasts_S64x256x1024_S64x256x32x32) hA).trans ?_
  rw [V_v0 m c, V_v1 m c, V_v2 m c, shapeCast_amplitudeV]
  simp only [shapeCast_shapeCast]

/-- The second result: the second output array, un-flattened. -/
theorem result_reset (c : Dev nD) :
    Pipeline.afterTail₀ cfgs (dats m) 0 (V0 m) [hostOps1] c main_v5
      = resetV (S := S64x256x32x32) .one (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v5) = _
  after_results
  have hA := (Pipeline.withArrays_arr spec0 launch0.win.arr_inj c (V0 m c) (fun w => (dats m 0 c).arrAt w cfg0.N) 4).trans
    (final_reset m c)
  refine (congrArg (fun v : S64x256x1024.Idx → Elt F .f32 =>
    shapeCast S64x256x32x32 v shapeCasts_S64x256x1024_S64x256x32x32) hA).trans ?_
  rw [V_v0 m c, V_v1 m c, V_v2 m c, shapeCast_resetV]
  simp only [shapeCast_shapeCast]

/-- The third result: the third output array, un-flattened. -/
theorem result_deadline (c : Dev nD) :
    Pipeline.afterTail₀ cfgs (dats m) 0 (V0 m) [hostOps1] c main_v6
      = deadlineV (S := S64x256x32x32) .one (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v6) = _
  after_results
  have hA := (Pipeline.withArrays_arr spec0 launch0.win.arr_inj c (V0 m c) (fun w => (dats m 0 c).arrAt w cfg0.N) 5).trans
    (final_deadline m c)
  refine (congrArg (fun v : S64x256x1024.Idx → Elt F .f32 =>
    shapeCast S64x256x32x32 v shapeCasts_S64x256x1024_S64x256x32x32) hA).trans ?_
  rw [V_v0 m c, V_v1 m c, V_v2 m c, shapeCast_deadlineV]
  simp only [shapeCast_shapeCast]

/-- The fourth result: the fourth output array, un-flattened. -/
theorem result_stamp (c : Dev nD) :
    Pipeline.afterTail₀ cfgs (dats m) 0 (V0 m) [hostOps1] c main_v7
      = stampV (S := S64x256x32x32) .one (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v7) = _
  after_results
  have hA := (Pipeline.withArrays_arr spec0 launch0.win.arr_inj c (V0 m c) (fun w => (dats m 0 c).arrAt w cfg0.N) 6).trans
    (final_stamp m c)
  refine (congrArg (fun v : S64x256x1024.Idx → Elt F .f32 =>
    shapeCast S64x256x32x32 v shapeCasts_S64x256x1024_S64x256x32x32) hA).trans ?_
  rw [V_v0 m c, V_v1 m c, V_v2 m c, shapeCast_stampV]
  simp only [shapeCast_shapeCast]

/-! ## The run -/

/-- Every weakly fair execution of the kernel program terminates with the four results at the amplitude, the reset potential,
    the new deadline and the stamp of the first three arguments, index by index, and the arguments unchanged: the generated
    frame run, its post read at the results (buffers no window stages: what the host lines after the region leave) and at
    the arguments. -/
theorem run : θ_run defs (onTc (τ := τ) (main (F := F))) ⟨m, fun _ => 0, ρ⟩ fun r => ∀ c : Dev nD,
      r.2.mem ((c.tc : Thread nD τ).loc main_v4)
        = amplitudeV (S := S64x256x32x32) (m ((c.tc : Thread nD τ).loc main_arg0)) (m ((c.tc : Thread nD τ).loc main_arg1)) (m ((c.tc : Thread nD τ).loc main_arg2))
      ∧ r.2.mem ((c.tc : Thread nD τ).loc main_v5)
        = resetV (S := S64x256x32x32) .one (m ((c.tc : Thread nD τ).loc main_arg0)) (m ((c.tc : Thread nD τ).loc main_arg1)) (m ((c.tc : Thread nD τ).loc main_arg2))
      ∧ r.2.mem ((c.tc : Thread nD τ).loc main_v6)
        = deadlineV (S := S64x256x32x32) .one (m ((c.tc : Thread nD τ).loc main_arg0)) (m ((c.tc : Thread nD τ).loc main_arg1)) (m ((c.tc : Thread nD τ).loc main_arg2))
      ∧ r.2.mem ((c.tc : Thread nD τ).loc main_v7)
        = stampV (S := S64x256x32x32) .one (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      ((h c).2 main_v4 (Pipeline.mem_restRefs_of main_v4 (by decide) (by decide))).trans (result_amplitude m c),
      ((h c).2 main_v5 (Pipeline.mem_restRefs_of main_v5 (by decide) (by decide))).trans (result_reset m c),
      ((h c).2 main_v6 (Pipeline.mem_restRefs_of main_v6 (by decide) (by decide))).trans (result_deadline m c),
      ((h c).2 main_v7 (Pipeline.mem_restRefs_of main_v7 (by decide) (by decide))).trans (result_stamp m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefValue.lean ====
/-
  The reference computes the step's four functions of its first three arguments.

  Its @main is a chain of whole-array operations that act index by index — comparisons with a broadcast literal,
  selections (jnp.where, outlined and inlined again), one addition, one subtraction, and conversions f32 → f32 that are the
  identity — so each result, read at an index, is the corresponding function of `Cert.Spike` of the three arguments' entries
  at that index, by unfolding alone and at any float instance; the test "amplitude ≠ 0" is the unordered predicate here.
-/
import proofs.«151296_j62466004353543_2_alg».proof.Proof.RefRun
import proofs.«151296_j62466004353543_2_alg».proof.Proof.Spec

noncomputable section

namespace Cert.ReferenceIdeal.RefValue

open Cert.ReferenceIdeal Idealize.ShloMosaic Idealize.ShloMosaic.TcCoe Idealize.SL.Sem Cert.Spike

variable {F : FTy → Type} [FloatOps F]

/-- The reference's run with each result named: every weakly fair execution terminates with the four results at the amplitude,
    the reset potential, the new deadline and the stamp of the first three arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
        = amplitudeV (S := S64x256x32x32) (m ((c.tc : Thread nD τ).loc main_arg0)) (m ((c.tc : Thread nD τ).loc main_arg1)) (m ((c.tc : Thread nD τ).loc main_arg2))
      ∧ r.2.mem ((c.tc : Thread nD τ).loc main_v15)
        = resetV (S := S64x256x32x32) .une (m ((c.tc : Thread nD τ).loc main_arg0)) (m ((c.tc : Thread nD τ).loc main_arg1)) (m ((c.tc : Thread nD τ).loc main_arg2))
      ∧ r.2.mem ((c.tc : Thread nD τ).loc main_v16)
        = deadlineV (S := S64x256x32x32) .une (m ((c.tc : Thread nD τ).loc main_arg0)) (m ((c.tc : Thread nD τ).loc main_arg1)) (m ((c.tc : Thread nD τ).loc main_arg2))
      ∧ r.2.mem ((c.tc : Thread nD τ).loc main_v18)
        = stampV (S := S64x256x32x32) .une (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl,
      (h c).2.2.2.1.trans rfl, (h c).2.2.2.2⟩)
    (Cert.ReferenceIdeal.ValueP.run (F := F) m ρ)

end Cert.ReferenceIdeal.RefValue

end
-- ==== Proof.lean ====
/-
  One leaky integrate-and-fire step on [64, 256, 32, 32] arrays: a Pallas kernel against its jnp reference.

  Both programs compute, for every element independently, from the impulse `x`, the membrane potential `m` and the
  refractory deadline `r`: the potential after integration (the impulse dropped while `r > 5`) and leak (0.1 off a positive
  potential), the spike amplitude (1 where the potential reaches 1), and, where the element fired, the potential reset to 0,
  the deadline moved to 7 and the spike train stamped 5 (Proof/Spec.lean). The literals are the same f32 words on both
  sides and are never evaluated.

  The kernel flattens the trailing [32, 32] to 1024, runs a 64-point grid over blocks [1, 256, 1024] of the three arrays
  it reads, computes index by index on the blocks, writes four output arrays block by block, and un-flattens them. Its
  four results are therefore the step's functions of the arguments, index by index (Proof/KernelBlock.lean: a block;
  Proof/KernelArray.lean: the blocks tile the arrays; Proof/KernelRun.lean: the two changes of shape cancel). The reference
  applies whole-array operations index by index, and its results are the same functions by unfolding
  (Proof/RefRun.lean: its run; Proof/RefValue.lean: the run's terms named).

  The one difference between the two texts is the test "amplitude ≠ 0": the kernel's predicate is ordered, the reference's
  unordered. On the extended reals every two values are comparable and the two predicates are one test, so the results
  are equal; no finiteness of the inputs is used. The idealization rewrote nothing, so `preserves` is `True`; the two
  kernel programs' frames are the generated ones, and the reference's frame is its run with the results dropped.
-/
import proofs.«151296_j62466004353543_2_alg».proof.Defs
import proofs.«151296_j62466004353543_2_alg».proof.Proof.Gen.Kernel
import proofs.«151296_j62466004353543_2_alg».proof.Proof.Gen.Kernel.Skeleton
import proofs.«151296_j62466004353543_2_alg».proof.Proof.Gen.Kernel.Launch
import proofs.«151296_j62466004353543_2_alg».proof.Proof.Gen.Kernel.Points
import proofs.«151296_j62466004353543_2_alg».proof.Proof.Gen.Kernel.Frame
import proofs.«151296_j62466004353543_2_alg».proof.Proof.Gen.KernelIdeal
import proofs.«151296_j62466004353543_2_alg».proof.Proof.Gen.KernelIdeal.Skeleton
import proofs.«151296_j62466004353543_2_alg».proof.Proof.Gen.KernelIdeal.Launch
import proofs.«151296_j62466004353543_2_alg».proof.Proof.Gen.KernelIdeal.Points
import proofs.«151296_j62466004353543_2_alg».proof.Proof.Gen.KernelIdeal.Frame
import proofs.«151296_j62466004353543_2_alg».proof.Proof.Gen.ReferenceIdeal
import proofs.«151296_j62466004353543_2_alg».proof.Proof.Gen.Pre_finite_inputs
import proofs.«151296_j62466004353543_2_alg».proof.Proof.KernelRun
import proofs.«151296_j62466004353543_2_alg».proof.Proof.RefValue
import Idealize.ShloMosaic.Adequacy
import Idealize.ShloMosaic.Init

noncomputable section

namespace Cert.Proof

open Idealize.ShloMosaic Idealize.SL.Sem Cert.Spike

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference's run, its results dropped. -/
theorem frame_reference : Cert.frame_ReferenceIdeal := fun m ρ _ =>
  (θ_run Cert.ReferenceIdeal.defs _ _).mono (fun _ h c => (h c).2.2.2.2)
    (Cert.ReferenceIdeal.RefValue.run (F := Ideal) m ρ)

/-! ## The idealization rewrote nothing -/

theorem preserves : Cert.preserves_Kernel_KernelIdeal := trivial

/-! ## Equal results on the extended reals -/

/-- From memories that agree on the arguments both programs end with the amplitude, the reset potential, the new deadline
    and the stamp of the first three arguments at every index: the kernel's with the ordered "≠ 0", the reference's with the
    unordered one, which on the extended reals is the same test. -/
theorem algebraic : Cert.algebraic_KernelIdeal_ReferenceIdeal := by
  intro m ρ m' ρ' _ hagree
  refine ⟨_, _, _, _, Cert.KernelIdeal.Result.run (F := Ideal) m ρ, ?_⟩
  refine (θ_run Cert.ReferenceIdeal.defs _ _).mono (fun _ h c => ?_)
    (Cert.ReferenceIdeal.RefValue.run (F := Ideal) m' ρ')
  obtain ⟨h0, h1, h2, h3, hkept⟩ := h c
  obtain ⟨a0, a1, a2, _⟩ := hagree c
  refine ⟨h0.trans ?_, h1.trans ?_, h2.trans ?_, h3.trans ?_, hkept⟩
  · rw [a0, a1, a2]
  · rw [a0, a1, a2]; exact resetV_une _ _ _
  · rw [a0, a1, a2]; exact deadlineV_une _ _ _
  · rw [a0, a1, a2]; exact stampV_une _ _ _

/-! ## The claim -/

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
